-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x393216 : Shape := ⟨2, ![2, 393216]⟩
abbrev S393216x4 : Shape := ⟨2, ![393216, 4]⟩
abbrev S1x256 : Shape := ⟨2, ![1, 256]⟩
abbrev S1 : Shape := ⟨1, ![1]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S393216x4 : S_.BroadcastsInDim S393216x4 (![] : Fin 0 → Fin S393216x4.rank)
  reducesTo_S393216x4_S_d0_1 : S393216x4.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S12288x128 .f32) (main_arg1 : IVec S2x393216 32) (main_arg2 : FVec F S393216x4 .f32) (main_arg3 : FVec F S1x256 .f32) (main_arg4 : FVec F S1 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S393216x4 .f32 := Host.absf main_arg2
  let main_cst_0 : FVec F S_ .f32 := constant S_ .f32 0x7F800000#32
  let main_v5 : FVec F S393216x4 .f32 := broadcastInDim S393216x4 ![] bcast_S_S393216x4 main_cst_0
  let main_v6 : IVec S393216x4 1 := cmpf .olt main_v4 main_v5
  let main_c_1 : IVec S_ 1 := constantI S_ 1 1#1
  let main_v7 : IVec S_ 1 := (fun x v => Host.reduce IntOp.andi x v reducesTo_S393216x4_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S12288x128 : Shape := ⟨2, ![12288, 128]⟩
abbrev S2x393216 : Shape := ⟨2, ![2, 393216]⟩
abbrev S393216x4 : Shape := ⟨2, ![393216, 4]⟩
abbrev S1x256 : Shape := ⟨2, ![1, 256]⟩
abbrev S1 : Shape := ⟨1, ![1]⟩
abbrev S1x393216 : Shape := ⟨2, ![1, 393216]⟩
abbrev S393216 : Shape := ⟨1, ![393216]⟩
abbrev S256 : Shape := ⟨1, ![256]⟩
abbrev S2x128 : Shape := ⟨2, ![2, 128]⟩
abbrev S128x2 : Shape := ⟨2, ![128, 2]⟩
abbrev S12288x2 : Shape := ⟨2, ![12288, 2]⟩
abbrev S1024x128 : Shape := ⟨2, ![1024, 128]⟩
abbrev S1024x2 : Shape := ⟨2, ![1024, 2]⟩
abbrev S12288x1 : Shape := ⟨2, ![12288, 1]⟩
abbrev S12288 : Shape := ⟨1, ![12288]⟩
abbrev S_ : Shape := ⟨0, ![]⟩
abbrev S393216x1 : Shape := ⟨2, ![393216, 1]⟩
abbrev S12288x12288 : Shape := ⟨2, ![12288, 12288]⟩
abbrev S256x12288 : Shape := ⟨2, ![256, 12288]⟩
abbrev S393216x2 : Shape := ⟨2, ![393216, 2]⟩

abbrev nBuf : Space → Nat
  | .hbm => 78
  | .vmem => 7
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S393216x4, .f32⟩
  | .hbm, ⟨3, _⟩ => ⟨S1x256, .f32⟩
  | .hbm, ⟨4, _⟩ => ⟨S1, .f32⟩
  | .hbm, ⟨5, _⟩ => ⟨S1x393216, .i32⟩
  | .hbm, ⟨6, _⟩ => ⟨S393216, .i32⟩
  | .hbm, ⟨7, _⟩ => ⟨S1x393216, .i32⟩
  | .hbm, ⟨8, _⟩ => ⟨S393216, .i32⟩
  | .hbm, ⟨9, _⟩ => ⟨S256, .f32⟩
  | .hbm, ⟨10, _⟩ => ⟨S2x128, .f32⟩
  | .hbm, ⟨11, _⟩ => ⟨S128x2, .f32⟩
  | .hbm, ⟨12, _⟩ => ⟨S12288x2, .f32⟩
  | .hbm, ⟨13, _⟩ => ⟨S12288x1, .f32⟩
  | .hbm, ⟨14, _⟩ => ⟨S12288, .f32⟩
  | .hbm, ⟨15, _⟩ => ⟨S_, .i32⟩
  | .hbm, ⟨16, _⟩ => ⟨S393216, .i32⟩
  | .hbm, ⟨17, _⟩ => ⟨S393216, .i1⟩
  | .hbm, ⟨18, _⟩ => ⟨S_, .i32⟩
  | .hbm, ⟨19, _⟩ => ⟨S393216, .i32⟩
  | .hbm, ⟨20, _⟩ => ⟨S393216, .i32⟩
  | .hbm, ⟨21, _⟩ => ⟨S393216, .i32⟩
  | .hbm, ⟨22, _⟩ => ⟨S393216x1, .i32⟩
  | .hbm, ⟨23, _⟩ => ⟨S393216, .f32⟩
  | .hbm, ⟨24, _⟩ => ⟨S12288x1, .f32⟩
  | .hbm, ⟨25, _⟩ => ⟨S12288, .f32⟩
  | .hbm, ⟨26, _⟩ => ⟨S_, .i32⟩
  | .hbm, ⟨27, _⟩ => ⟨S393216, .i32⟩
  | .hbm, ⟨28, _⟩ => ⟨S393216, .i1⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216x1, .i32⟩
  | .hbm, ⟨34, _⟩ => ⟨S393216, .f32⟩
  | .hbm, ⟨35, _⟩ => ⟨S393216, .f32⟩
  | .hbm, ⟨36, _⟩ => ⟨S_, .f32⟩
  | .hbm, ⟨37, _⟩ => ⟨S393216, .f32⟩
  | .hbm, ⟨38, _⟩ => ⟨S393216, .f32⟩
  | .hbm, ⟨39, _⟩ => ⟨S_, .f32⟩
  | .hbm, ⟨40, _⟩ => ⟨S393216, .f32⟩
  | .hbm, ⟨41, _⟩ => ⟨S12288x12288, .f32⟩
  | .hbm, ⟨42, _⟩ => ⟨S_, .i32⟩
  | .hbm, ⟨43, _⟩ => ⟨S393216, .i32⟩
  | .hbm, ⟨44, _⟩ => ⟨S393216, .i1⟩
  | .hbm, ⟨45, _⟩ => ⟨S_, .i32⟩
  | .hbm, ⟨46, _⟩ => ⟨S393216, .i32⟩
  | .hbm, ⟨47, _⟩ => ⟨S393216, .i32⟩
  | .hbm, ⟨48, _⟩ => ⟨S393216, .i32⟩
  | .hbm, ⟨49, _⟩ => ⟨S_, .i32⟩
  | .hbm, ⟨50, _⟩ => ⟨S393216, .i32⟩
  | .hbm, ⟨51, _⟩ => ⟨S393216, .i1⟩
  | .hbm, ⟨52, _⟩ => ⟨S_, .i32⟩
  | .hbm, ⟨53, _⟩ => ⟨S393216, .i32⟩
  | .hbm, ⟨54, _⟩ => ⟨S393216, .i32⟩
  | .hbm, ⟨55, _⟩ => ⟨S393216, .i32⟩
  | .hbm, ⟨56, _⟩ => ⟨S393216x1, .i32⟩
  | .hbm, ⟨57, _⟩ => ⟨S393216x1, .i32⟩
  | .hbm, ⟨58, _⟩ => ⟨S393216x2, .i32⟩
  | .hbm, ⟨59, _⟩ => ⟨S12288x12288, .f32⟩
  | .hbm, ⟨60, _⟩ => ⟨S_, .i32⟩
  | .hbm, ⟨61, _⟩ => ⟨S393216, .i32⟩
  | .hbm, ⟨62, _⟩ => ⟨S393216, .i1⟩
  | .hbm, ⟨63, _⟩ => ⟨S_, .i32⟩
  | .hbm, ⟨64, _⟩ => ⟨S393216, .i32⟩
  | .hbm, ⟨65, _⟩ => ⟨S393216, .i32⟩
  | .hbm, ⟨66, _⟩ => ⟨S393216, .i32⟩
  | .hbm, ⟨67, _⟩ => ⟨S_, .i32⟩
  | .hbm, ⟨68, _⟩ => ⟨S393216, .i32⟩
  | .hbm, ⟨69, _⟩ => ⟨S393216, .i1⟩
  | .hbm, ⟨70, _⟩ => ⟨S_, .i32⟩
  | .hbm, ⟨71, _⟩ => ⟨S393216, .i32⟩
  | .hbm, ⟨72, _⟩ => ⟨S393216, .i32⟩
  | .hbm, ⟨73, _⟩ => ⟨S393216, .i32⟩
  | .hbm, ⟨74, _⟩ => ⟨S393216x1, .i32⟩
  | .hbm, ⟨75, _⟩ => ⟨S393216x1, .i32⟩
  | .hbm, ⟨76, _⟩ => ⟨S393216x2, .i32⟩
  | .hbm, ⟨77, _⟩ => ⟨S12288x12288, .f32⟩
  | .local _ .vmem, ⟨0, _⟩ => ⟨S1024x128, .f32⟩
  | .local _ .vmem, ⟨1, _⟩ => ⟨S1024x128, .f32⟩
  | .local _ .vmem, ⟨2, _⟩ => ⟨S128x2, .f32⟩
  | .local _ .vmem, ⟨3, _⟩ => ⟨S1024x2, .f32⟩
  | .local _ .vmem, ⟨4, _⟩ => ⟨S1024x2, .f32⟩
  | .local _ .vmem, ⟨5, _⟩ => ⟨S256x12288, .f32⟩
  | .local _ .vmem, ⟨6, _⟩ => ⟨S256x12288, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  shapeCasts_S1x256_S256 : S1x256.ShapeCasts S256
  shapeCasts_S256_S2x128 : S256.ShapeCasts S2x128
  transposes_S2x128_S128x2_1_0 : S2x128.Transposes [1, 0] S128x2
  inb_S1024x128_S1024x128_0_0 : ∀ a, (![0, 0] : Fin 2 → Nat) a + S1024x128.size a ≤ S1024x128.size a
  h_S1024x128 : 0 < S1024x128.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1024x2_S1024x2_0_0 : ∀ a, (![0, 0] : Fin 2 → Nat) a + S1024x2.size a ≤ S1024x2.size a
  h_S1024x2 : 0 < S1024x2.numel
  slices_S12288x2_S12288x1_0_0 : S12288x2.Slices ![0, 0] S12288x1
  shapeCasts_S12288x1_S12288 : S12288x1.ShapeCasts S12288
  bcast_S_S393216 : S_.BroadcastsInDim S393216 (![] : Fin 0 → Fin S393216.rank)
  bcast_S393216_S393216x1_0 : S393216.BroadcastsInDim S393216x1 (![0] : Fin 1 → Fin S393216x1.rank)
  slices_S12288x2_S12288x1_0_1 : S12288x2.Slices ![0, 1] S12288x1
  shapeCasts_S1_S_ : S1.ShapeCasts S_
  reducesTo_S393216x4_S393216_d1 : S393216x4.ReducesTo [1] S393216
  h_S_ : 0 < S_.numel
  inb_S256x12288_S256x12288_0_0 : ∀ a, (![0, 0] : Fin 2 → Nat) a + S256x12288.size a ≤ S256x12288.size a
  h_S256x12288 : 0 < S256x12288.numel
  concatenates_S393216x1_S393216x1_S393216x2_d1 : Shape.Concatenates [S393216x1, S393216x1] S393216x2 1
  dot_S1024x128_S128x2_S1024x2_1_0_0_1_n_n_wf : DotDims.WF S1024x128 S128x2 S1024x2 [1] [0] [0] [1] [] []
  gather_S12288_S393216x1_S393216_n_0_n_n_0_1_1_wf : GatherDims.WF S12288 S393216x1 S393216 [] [0] [] [0] [] 1 ![1]
  scatter_S12288x12288_S393216x2_S393216_n_01_01_1_wf : ScatterDims.WF S12288x12288 S393216x2 S393216 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S12288x128.size a
  hwx0_0 : ∀ i : grid0.Coords, EltTy.bits .f32 = 32 ∨ (Rect.block (s := S12288x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S12288x2.size a
  hwx0_2 : ∀ i : grid0.Coords, EltTy.bits .f32 = 32 ∨ (Rect.block (s := S12288x2) S1024x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)

variable [Facts₀]

def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S256x12288.size cc1_transform_0 reads1_0 true false 2 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S12288x128 : Shape := ⟨2, ![12288, 128]⟩
abbrev S2x393216 : Shape := ⟨2, ![2, 393216]⟩
abbrev S393216x4 : Shape := ⟨2, ![393216, 4]⟩
abbrev S1x256 : Shape := ⟨2, ![1, 256]⟩
abbrev S1 : Shape := ⟨1, ![1]⟩
abbrev S1x393216 : Shape := ⟨2, ![1, 393216]⟩
abbrev S393216 : Shape := ⟨1, ![393216]⟩
abbrev S_ : Shape := ⟨0, ![]⟩
abbrev S393216x1 : Shape := ⟨2, ![393216, 1]⟩
abbrev S393216x128 : Shape := ⟨2, ![393216, 128]⟩
abbrev S393216x256 : Shape := ⟨2, ![393216, 256]⟩
abbrev S256x1 : Shape := ⟨2, ![256, 1]⟩
abbrev S1x1 : Shape := ⟨2, ![1, 1]⟩
abbrev S12288x12288 : Shape := ⟨2, ![12288, 12288]⟩
abbrev S393216x2 : Shape := ⟨2, ![393216, 2]⟩

abbrev nBuf : Space → Nat
  | .hbm => 77
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S393216x4, .f32⟩
  | .hbm, ⟨3, _⟩ => ⟨S1x256, .f32⟩
  | .hbm, ⟨4, _⟩ => ⟨S1, .f32⟩
  | .hbm, ⟨5, _⟩ => ⟨S1x393216, .i32⟩
  | .hbm, ⟨6, _⟩ => ⟨S393216, .i32⟩
  | .hbm, ⟨7, _⟩ => ⟨S1x393216, .i32⟩
  | .hbm, ⟨8, _⟩ => ⟨S393216, .i32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x128, .f32⟩
  | .hbm, ⟨18, _⟩ => ⟨S_, .i32⟩
  | .hbm, ⟨19, _⟩ => ⟨S393216, .i32⟩
  | .hbm, ⟨20, _⟩ => ⟨S393216, .i1⟩
  | .hbm, ⟨21, _⟩ => ⟨S_, .i32⟩
  | .hbm, ⟨22, _⟩ => ⟨S393216, .i32⟩
  | .hbm, ⟨23, _⟩ => ⟨S393216, .i32⟩
  | .hbm, ⟨24, _⟩ => ⟨S393216, .i32⟩
  | .hbm, ⟨25, _⟩ => ⟨S393216x1, .i32⟩
  | .hbm, ⟨26, _⟩ => ⟨S393216x128, .f32⟩
  | .hbm, ⟨27, _⟩ => ⟨S393216x256, .f32⟩
  | .hbm, ⟨28, _⟩ => ⟨S256x1, .f32⟩
  | .hbm, ⟨29, _⟩ => ⟨S393216x1, .f32⟩
  | .hbm, ⟨30, _⟩ => ⟨S1x1, .f32⟩
  | .hbm, ⟨31, _⟩ => ⟨S393216x1, .f32⟩
  | .hbm, ⟨32, _⟩ => ⟨S393216x1, .f32⟩
  | .hbm, ⟨33, _⟩ => ⟨S393216, .f32⟩
  | .hbm, ⟨34, _⟩ => ⟨S_, .f32⟩
  | .hbm, ⟨35, _⟩ => ⟨S12288x12288, .f32⟩
  | .hbm, ⟨36, _⟩ => ⟨S_, .i32⟩
  | .hbm, ⟨37, _⟩ => ⟨S393216, .i32⟩
  | .hbm, ⟨38, _⟩ => ⟨S393216, .i1⟩
  | .hbm, ⟨39, _⟩ => ⟨S_, .i32⟩
  | .hbm, ⟨40, _⟩ => ⟨S393216, .i32⟩
  | .hbm, ⟨41, _⟩ => ⟨S393216, .i32⟩
  | .hbm, ⟨42, _⟩ => ⟨S393216, .i32⟩
  | .hbm, ⟨43, _⟩ => ⟨S_, .i32⟩
  | .hbm, ⟨44, _⟩ => ⟨S393216, .i32⟩
  | .hbm, ⟨45, _⟩ => ⟨S393216, .i1⟩
  | .hbm, ⟨46, _⟩ => ⟨S_, .i32⟩
  | .hbm, ⟨47, _⟩ => ⟨S393216, .i32⟩
  | .hbm, ⟨48, _⟩ => ⟨S393216, .i32⟩
  | .hbm, ⟨49, _⟩ => ⟨S393216, .i32⟩
  | .hbm, ⟨50, _⟩ => ⟨S393216x1, .i32⟩
  | .hbm, ⟨51, _⟩ => ⟨S393216x1, .i32⟩
  | .hbm, ⟨52, _⟩ => ⟨S393216x2, .i32⟩
  | .hbm, ⟨53, _⟩ => ⟨S12288x12288, .f32⟩
  | .hbm, ⟨54, _⟩ => ⟨S_, .f32⟩
  | .hbm, ⟨55, _⟩ => ⟨S12288x12288, .f32⟩
  | .hbm, ⟨56, _⟩ => ⟨S_, .f32⟩
  | .hbm, ⟨57, _⟩ => ⟨S393216, .f32⟩
  | .hbm, ⟨58, _⟩ => ⟨S_, .i32⟩
  | .hbm, ⟨59, _⟩ => ⟨S393216, .i32⟩
  | .hbm, ⟨60, _⟩ => ⟨S393216, .i1⟩
  | .hbm, ⟨61, _⟩ => ⟨S_, .i32⟩
  | .hbm, ⟨62, _⟩ => ⟨S393216, .i32⟩
  | .hbm, ⟨63, _⟩ => ⟨S393216, .i32⟩
  | .hbm, ⟨64, _⟩ => ⟨S393216, .i32⟩
  | .hbm, ⟨65, _⟩ => ⟨S_, .i32⟩
  | .hbm, ⟨66, _⟩ => ⟨S393216, .i32⟩
  | .hbm, ⟨67, _⟩ => ⟨S393216, .i1⟩
  | .hbm, ⟨68, _⟩ => ⟨S_, .i32⟩
  | .hbm, ⟨69, _⟩ => ⟨S393216, .i32⟩
  | .hbm, ⟨70, _⟩ => ⟨S393216, .i32⟩
  | .hbm, ⟨71, _⟩ => ⟨S393216, .i32⟩
  | .hbm, ⟨72, _⟩ => ⟨S393216x1, .i32⟩
  | .hbm, ⟨73, _⟩ => ⟨S393216x1, .i32⟩
  | .hbm, ⟨74, _⟩ => ⟨S393216x2, .i32⟩
  | .hbm, ⟨75, _⟩ => ⟨S12288x12288, .f32⟩
  | .hbm, ⟨76, _⟩ => ⟨S12288x12288, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  concatenates_S393216x128_S393216x128_S393216x256_d1 : Shape.Concatenates [S393216x128, S393216x128] S393216x256 1
  transposes_S1x256_S256x1_1_0 : S1x256.Transposes [1, 0] S256x1
  bcast_S1_S1x1_1 : S1.BroadcastsInDim S1x1 (![1] : Fin 1 → Fin S1x1.rank)
  bcast_S1x1_S393216x1_0_1 : S1x1.BroadcastsInDim S393216x1 (![0, 1] : Fin 2 → Fin S393216x1.rank)
  shapeCasts_S393216x1_S393216 : S393216x1.ShapeCasts S393216
  bcast_S_S12288x12288 : S_.BroadcastsInDim S12288x12288 (![] : Fin 0 → Fin S12288x12288.rank)
  concatenates_S393216x1_S393216x1_S393216x2_d1 : Shape.Concatenates [S393216x1, S393216x1] S393216x2 1
  reducesTo_S393216x4_S393216_d1 : S393216x4.ReducesTo [1] S393216
  h_S_ : 0 < S_.numel
  gather_S12288x128_S393216x1_S393216x128_1_0_n_n_0_1_1128_wf : GatherDims.WF S12288x128 S393216x1 S393216x128 [1] [0] [] [0] [] 1 ![1, 128]
  dot_S393216x256_S256x1_S393216x1_1_0_0_1_n_n_wf : DotDims.WF S393216x256 S256x1 S393216x1 [1] [0] [0] [1] [] []
  scatter_S12288x12288_S393216x2_S393216_n_01_01_1_wf : ScatterDims.WF S12288x12288 S393216x2 S393216 [] [0, 1] [0, 1] 1

variable [Facts₀]

def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def dot_S393216x256_S256x1_S393216x1_1_0_0_1_n_n : DotDims S393216x256 S256x1 S393216x1 where
  lhsContracting := [1]
  rhsContracting := [0]
  lhsNonContracting := [0]
  rhsNonContracting := [1]
  lhsBatch := []
  rhsBatch := []
  wf := dot_S393216x256_S256x1_S393216x1_1_0_0_1_n_n_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

class Facts : Prop extends Facts₀ where

variable [Facts]
-- ==== Proof.KernelRun.lean ====
/-
  The kernel program's run with its result named. Every weakly fair execution of the program terminates without a fault,
  its arguments unchanged, and the result buffer ends at the last boundary's contents: the fold of the three host
  stretches and the two kernel calls over the launch memory. The program is a sequence of five segments — a host stretch,
  the projection call, a host stretch, the zeros call, a host stretch — and each segment takes the thread state "every
  unscoped buffer at the boundary's contents" to the same statement at the next boundary. At the last boundary that state
  holds the result buffer like every other buffer, so the final memory has it at the fold's value there.
-/
import proofs.«123619_j7215545058050_2_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run_result : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Stages.lean ====
/-
  The host side of the kernel program as pure functions of arrays, stage by stage.

  The program takes node features `z : [12288, 128]`, an edge list `e : [2, 393216]` of integer node indices, edge
  attributes `a : [393216, 4]`, a weight row `W : [1, 256]` and a bias `b : [1]`. Around its two kernel calls (a projection
  `z · [w₁ | w₂] : [12288, 2]` and a dense `[12288, 12288]` array of zeros) it computes, per edge `k` with end points
  `(r, c)`, the number `p k = zw (r, 0) + zw (c, 1) + b`, and the row sum `s k` of the edge's attributes; it writes `p` into the
  zero array at the positions `(r, c)` (a later edge replacing an earlier one at the same position) and then adds every `s k` at
  its position. A negative index is first wrapped by adding 12288, as indexing does; a gather clamps what is still out of
  range and a scatter drops it.

  Each definition below is one value the program computes, spelt with the program's own operations, so that the run of
  the host operations is these functions by unfolding.
-/
import proofs.«123619_j7215545058050_2_alg».proof.KernelIdeal
import proofs.«123619_j7215545058050_2_alg».proof.Proof.Gen.KernelIdeal

noncomputable section

namespace Cert.KernelIdeal.Stages

open Cert.KernelIdeal Cert.KernelIdeal.Gen Idealize.ShloMosaic Idealize.SL.Sem

variable {F : FTy → Type} [FloatOps F]

/-- Row 0 of the edge list as a vector: the sources. -/
def ends0 (e : (⟨S2x393216, .i32⟩ : BufTy).Contents (Elt F)) : (⟨S393216, .i32⟩ : BufTy).Contents (Elt F) :=
  shapeCast _ (extractStridedSlice S1x393216 ![0, 0] e slices_S2x393216_S1x393216_0_0) shapeCasts_S1x393216_S393216

/-- Row 1 of the edge list as a vector: the targets. -/
def ends1 (e : (⟨S2x393216, .i32⟩ : BufTy).Contents (Elt F)) : (⟨S393216, .i32⟩ : BufTy).Contents (Elt F) :=
  shapeCast _ (extractStridedSlice S1x393216 ![1, 0] e slices_S2x393216_S1x393216_1_0) shapeCasts_S1x393216_S393216

/-- The weight row as a `[128, 2]` matrix: column 0 its first half, column 1 its second half. -/
def halves (w : (⟨S1x256, .f32⟩ : BufTy).Contents (Elt F)) : (⟨S128x2, .f32⟩ : BufTy).Contents (Elt F) :=
  transpose S128x2 [1, 0] (shapeCast S2x128 (shapeCast S256 w shapeCasts_S1x256_S256) shapeCasts_S256_S2x128) transposes_S2x128_S128x2_1_0

/-- An index vector with the negative entries wrapped: `x + 12288` where `x < 0`, else `x`. -/
def wrap (r : (⟨S393216, .i32⟩ : BufTy).Contents (Elt F)) : (⟨S393216, .i32⟩ : BufTy).Contents (Elt F) :=
  select (cmpi .slt r (broadcastInDim S393216 ![] bcast_S_S393216 (constantI S_ 32 0#32)))
    (addi r (broadcastInDim S393216 ![] bcast_S_S393216 (constantI S_ 32 12288#32))) r

/-- The wrapped indices as a column of one-component index vectors. -/
def column (r : (⟨S393216, .i32⟩ : BufTy).Contents (Elt F)) : (⟨S393216x1, .i32⟩ : BufTy).Contents (Elt F) :=
  broadcastInDim S393216x1 ![0] bcast_S393216_S393216x1_0 (wrap (F := F) r)

/-- Column 0 of the projection as a vector. -/
def proj0 (zw : (⟨S12288x2, .f32⟩ : BufTy).Contents (Elt F)) : (⟨S12288, .f32⟩ : BufTy).Contents (Elt F) :=
  shapeCast _ (extractStridedSlice S12288x1 ![0, 0] zw slices_S12288x2_S12288x1_0_0) shapeCasts_S12288x1_S12288

/-- Column 1 of the projection as a vector. -/
def proj1 (zw : (⟨S12288x2, .f32⟩ : BufTy).Contents (Elt F)) : (⟨S12288, .f32⟩ : BufTy).Contents (Elt F) :=
  shapeCast _ (extractStridedSlice S12288x1 ![0, 1] zw slices_S12288x2_S12288x1_0_1) shapeCasts_S12288x1_S12288

/-- A vector of node values read at the (wrapped, clamped) indices `r`. -/
def pick (v : (⟨S12288, .f32⟩ : BufTy).Contents (Elt F)) (r : (⟨S393216, .i32⟩ : BufTy).Contents (Elt F)) :
    (⟨S393216, .f32⟩ : BufTy).Contents (Elt F) :=
  Host.gather gather_S12288_S393216x1_S393216_n_0_n_n_0_1_1 v (column (F := F) r)

/-- The per-edge number: the source's first projection plus the target's second projection plus the bias. -/
def scores (zw : (⟨S12288x2, .f32⟩ : BufTy).Contents (Elt F)) (r c : (⟨S393216, .i32⟩ : BufTy).Contents (Elt F))
    (b : (⟨S1, .f32⟩ : BufTy).Contents (Elt F)) : (⟨S393216, .f32⟩ : BufTy).Contents (Elt F) :=
  addf (addf (pick (F := F) (proj0 (F := F) zw) r) (pick (F := F) (proj1 (F := F) zw) c))
    (broadcastInDim S393216 ![] bcast_S_S393216 (shapeCast S_ b shapeCasts_S1_S_))

/-- The per-edge sum of the four attributes. -/
def attrSums (a : (⟨S393216x4, .f32⟩ : BufTy).Contents (Elt F)) : (⟨S393216, .f32⟩ : BufTy).Contents (Elt F) :=
  Host.reduceAdd a (constant S_ .f32 0x00000000#32) reducesTo_S393216x4_S393216_d1 h_S_

/-- The positions `(source, target)` as an `[edges, 2]` array of index vectors. -/
def positions (r c : (⟨S393216, .i32⟩ : BufTy).Contents (Elt F)) : (⟨S393216x2, .i32⟩ : BufTy).Contents (Elt F) :=
  concatenate S393216x2 1 [⟨S393216x1, column (F := F) r⟩, ⟨S393216x1, column (F := F) c⟩] concatenates_S393216x1_S393216x1_S393216x2_d1

/-- The numbers `p` written into `base` at the positions. -/
def placed (base : (⟨S12288x12288, .f32⟩ : BufTy).Contents (Elt F)) (r c : (⟨S393216, .i32⟩ : BufTy).Contents (Elt F))
    (p : (⟨S393216, .f32⟩ : BufTy).Contents (Elt F)) : (⟨S12288x12288, .f32⟩ : BufTy).Contents (Elt F) :=
  Host.scatter scatter_S12288x12288_S393216x2_S393216_n_01_01_1 (fun _ b => b) base (positions (F := F) r c) p

/-- The program's result: the sums `s` added at the positions onto the array that holds `p` there. -/
def total (base : (⟨S12288x12288, .f32⟩ : BufTy).Contents (Elt F)) (r c : (⟨S393216, .i32⟩ : BufTy).Contents (Elt F))
    (p s : (⟨S393216, .f32⟩ : BufTy).Contents (Elt F)) : (⟨S12288x12288, .f32⟩ : BufTy).Contents (Elt F) :=
  Host.scatterAdd scatter_S12288x12288_S393216x2_S393216_n_01_01_1 (placed (F := F) base r c p) (positions (F := F) r c) s

end Cert.KernelIdeal.Stages

end
-- ==== Proof.Edges.lean ====
/-
  Reading the two programs' per-edge numbers at an edge.

  Both programs wrap a negative node index by adding 12288 and then gather, and a gather clamps the index it is given
  into `[0, 12287]`: `node x` is the node an index word `x` reads. The kernel program gathers from the two columns of the
  projection `z · [w₁ | w₂]`; the reference gathers whole rows of `z`, joins the source's row and the target's row into one
  row of 256 numbers and multiplies it with the weight row. The weight matrix `[w₁ | w₂]` is the weight row's two halves:
  entry `(q, 0)` is `W (0, q)` and entry `(q, 1)` is `W (0, 128 + q)`.
-/
import proofs.«123619_j7215545058050_2_alg».proof.Proof.Stages
import proofs.«123619_j7215545058050_2_alg».proof.Proof.Gen.ReferenceIdeal.Read
import Idealize.ShloMosaic.Lib.Pipeline.Value
import Idealize.ShloMosaic.Lib.ValueIdx

noncomputable section

namespace Cert.Edges

open Idealize.ShloMosaic Idealize.ShloMosaic.ValueIdx
open Cert.KernelIdeal Cert.KernelIdeal.Gen Cert.KernelIdeal.Stages

/-- The node an index word reads: the word as a signed integer, clamped into `[0, 12287]`. -/
def node (x : BitVec 32) : Fin 12288 := ⟨min x.toInt.toNat 12287, by omega⟩

section Gathers
variable {α : Type}

/-- A gather of single entries of a vector of 12288 node values: at edge `k` it reads the node of the edge's index. -/
theorem gather_nodes (v : S12288.Idx → α) (idx : IVec S393216x1 32) (k : Fin 393216) :
    Host.gather gather_S12288_S393216x1_S393216_n_0_n_n_0_1_1 v idx (ix1 k) = v (ix1 (node (idx (ix2 k 0)))) := by
  unfold Host.gather
  refine congrArg v (funext fun a => ?_)
  obtain rfl : a = 0 := Subsingleton.elim _ _
  refine Fin.ext ?_
  show gather_S12288_S393216x1_S393216_n_0_n_n_0_1_1.start (ix1 k) idx 0
      + gather_S12288_S393216x1_S393216_n_0_n_n_0_1_1.batchCoord (ix1 k) 0
      + gather_S12288_S393216x1_S393216_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S12288_S393216x1_S393216_n_0_n_n_0_1_1.startIndexMap from List.mem_singleton.mpr rfl)]
  have hsi : gather_S12288_S393216x1_S393216_n_0_n_n_0_1_1.siIdx (ix1 k)
      ⟨List.idxOf (0 : Fin 1) gather_S12288_S393216x1_S393216_n_0_n_n_0_1_1.startIndexMap,
        List.idxOf_lt_length_iff.2 (List.mem_singleton.mpr rfl)⟩ = ix2 k 0 := by
    funext b; refine Fin.ext ?_
    match b with
    | ⟨0, _⟩ => rfl
    | ⟨1, _⟩ => rfl
  rw [hsi]
  rfl

open Cert.ReferenceIdeal in
/-- A gather of whole rows of a `[12288, 128]` array: at edge `k` and column `q` it reads row (the node of the edge's
    index), column `q`. -/
theorem gather_rows (x : Cert.ReferenceIdeal.S12288x128.Idx → α) (idx : IVec Cert.ReferenceIdeal.S393216x1 32) (k : Fin 393216) (q : Fin 128) :
    Host.gather Cert.ReferenceIdeal.gather_S12288x128_S393216x1_S393216x128_1_0_n_n_0_1_1128 x idx (ix2 k q) = x (ix2 (node (idx (ix2 k 0))) q) := by
  unfold Host.gather
  refine congrArg x (funext fun a => Fin.ext ?_)
  have hsi : Cert.ReferenceIdeal.gather_S12288x128_S393216x1_S393216x128_1_0_n_n_0_1_1128.siIdx (ix2 k q)
      ⟨List.idxOf (0 : Fin 2) Cert.ReferenceIdeal.gather_S12288x128_S393216x1_S393216x128_1_0_n_n_0_1_1128.startIndexMap,
        List.idxOf_lt_length_iff.2 (List.mem_singleton.mpr rfl)⟩ = ix2 k 0 := by
    funext b; refine Fin.ext ?_
    match b with
    | ⟨0, _⟩ => rfl
    | ⟨1, _⟩ => rfl
  match a with
  | ⟨0, _⟩ =>
    show Cert.ReferenceIdeal.gather_S12288x128_S393216x1_S393216x128_1_0_n_n_0_1_1128.start (ix2 k q) idx 0
        + Cert.ReferenceIdeal.gather_S12288x128_S393216x1_S393216x128_1_0_n_n_0_1_1128.batchCoord (ix2 k q) 0
        + Cert.ReferenceIdeal.gather_S12288x128_S393216x1_S393216x128_1_0_n_n_0_1_1128.offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S12288x128_S393216x1_S393216x128_1_0_n_n_0_1_1128.startIndexMap from List.mem_singleton.mpr rfl)]
    rw [hsi]
    rfl
  | ⟨1, _⟩ =>
    show Cert.ReferenceIdeal.gather_S12288x128_S393216x1_S393216x128_1_0_n_n_0_1_1128.start (ix2 k q) idx 1
        + Cert.ReferenceIdeal.gather_S12288x128_S393216x1_S393216x128_1_0_n_n_0_1_1128.batchCoord (ix2 k q) 1
        + Cert.ReferenceIdeal.gather_S12288x128_S393216x1_S393216x128_1_0_n_n_0_1_1128.offCoord (ix2 k q) 1 = q.val
    rw [GatherDims.batchCoord_eq_zero _ _ _ List.not_mem_nil]
    unfold GatherDims.start GatherDims.offCoord
    rw [dif_neg (show ¬ (1 : Fin 2) ∈ Cert.ReferenceIdeal.gather_S12288x128_S393216x1_S393216x128_1_0_n_n_0_1_1128.startIndexMap by
        show ¬ (1 : Fin 2) ∈ ([0] : List (Fin 2)); decide),
      dif_pos (show (1 : Fin 2) ∈ Cert.ReferenceIdeal.gather_S12288x128_S393216x1_S393216x128_1_0_n_n_0_1_1128.sKept by
        show (1 : Fin 2) ∈ ([1] : List (Fin 2)); exact List.mem_singleton.mpr rfl)]
    show 0 + 0 + q.val = q.val
    omega

end Gathers

/-! ## The kernel program's stages at an edge -/

section Kernel
variable {F : FTy → Type} [FloatOps F]

/-- The column of index vectors at an edge is the wrapped index of the edge. -/
theorem column_apply (r : (⟨S393216, .i32⟩ : BufTy).Contents (Elt F)) (k : Fin 393216) :
    column (F := F) r (ix2 k 0) = wrap (F := F) r (ix1 k) := by
  unfold column
  exact broadcastInDim_apply _ bcast_S393216_S393216x1_0 (wrap (F := F) r) (ix2 k 0) (ix1 k) (fun a => match a with
    | ⟨0, _⟩ => by show k.val = if (393216 : Nat) = 1 then 0 else k.val; rw [if_neg (by decide)])

/-- A vector of node values picked at an edge: the value at the node of the edge's wrapped index. -/
theorem pick_apply (v : (⟨S12288, .f32⟩ : BufTy).Contents (Elt F)) (r : (⟨S393216, .i32⟩ : BufTy).Contents (Elt F)) (k : Fin 393216) :
    pick (F := F) v r (ix1 k) = v (ix1 (node (wrap (F := F) r (ix1 k)))) := by
  unfold pick
  rw [gather_nodes, column_apply]

/-- Column 0 of the projection at a node. -/
theorem proj0_apply (zw : (⟨S12288x2, .f32⟩ : BufTy).Contents (Elt F)) (n : Fin 12288) :
    proj0 (F := F) zw (ix1 n) = zw (ix2 n 0) := by
  unfold proj0
  refine (shapeCast_apply _ shapeCasts_S12288x1_S12288 (ix1 n) (ix2 n 0) (by
    rewrite [Shape.rowMajor_val_two, Shape.rowMajor_val_one]; show n.val * 1 + 0 = n.val; omega)).trans ?_
  exact extractStridedSlice_apply ![0, 0] zw slices_S12288x2_S12288x1_0_0 (ix2 n 0) (ix2 n 0) (fun a => match a with
    | ⟨0, _⟩ => by show n.val = 0 + n.val; omega
    | ⟨1, _⟩ => by show 0 = 0 + 0; rfl)

/-- Column 1 of the projection at a node. -/
theorem proj1_apply (zw : (⟨S12288x2, .f32⟩ : BufTy).Contents (Elt F)) (n : Fin 12288) :
    proj1 (F := F) zw (ix1 n) = zw (ix2 n 1) := by
  unfold proj1
  refine (shapeCast_apply _ shapeCasts_S12288x1_S12288 (ix1 n) (ix2 n 0) (by
    rewrite [Shape.rowMajor_val_two, Shape.rowMajor_val_one]; show n.val * 1 + 0 = n.val; omega)).trans ?_
  exact extractStridedSlice_apply ![0, 1] zw slices_S12288x2_S12288x1_0_1 (ix2 n 0) (ix2 n 1) (fun a => match a with
    | ⟨0, _⟩ => by show n.val = 0 + n.val; omega
    | ⟨1, _⟩ => by show 1 = 1 + 0; rfl)

/-- The weight matrix's entry `(q, j)` is the weight row's entry `128 j + q`. -/
theorem halves_apply (w : (⟨S1x256, .f32⟩ : BufTy).Contents (Elt F)) (q : Fin 128) (j : Fin 2) :
    halves (F := F) w (ix2 q j) = w (ix2 0 ⟨j.val * 128 + q.val, by omega⟩) := by
  unfold halves
  refine (transpose_apply [1, 0] _ transposes_S2x128_S128x2_1_0 (ix2 q j) (ix2 j q) (fun b => match b with
    | ⟨0, _⟩ => rfl
    | ⟨1, _⟩ => rfl)).trans ?_
  refine (shapeCast_apply _ shapeCasts_S256_S2x128 (ix2 j q) (ix1 ⟨j.val * 128 + q.val, by omega⟩) (by
    rewrite [Shape.rowMajor_val_one, Shape.rowMajor_val_two]; rfl)).trans ?_
  exact shapeCast_apply w shapeCasts_S1x256_S256 (ix1 ⟨j.val * 128 + q.val, by omega⟩) (ix2 0 ⟨j.val * 128 + q.val, by omega⟩) (by
    rewrite [Shape.rowMajor_val_two, Shape.rowMajor_val_one]; show 0 * 256 + (j.val * 128 + q.val) = j.val * 128 + q.val; omega)

/-- A one-entry vector has one index. -/
theorem only_index (i : S1.Idx) : i = ix1 0 := by
  funext a
  match a with
  | ⟨0, _⟩ => exact Fin.ext (by have h : (i 0).val < 1 := (i 0).isLt; show (i 0).val = 0; omega)

/-- The bias spread over the edges, at an edge. -/
theorem bias_apply (b : (⟨S1, .f32⟩ : BufTy).Contents (Elt F)) (k : Fin 393216) :
    (broadcastInDim S393216 ![] bcast_S_S393216 (shapeCast S_ b shapeCasts_S1_S_) : (⟨S393216, .f32⟩ : BufTy).Contents (Elt F)) (ix1 k) = b (ix1 0) := by
  rw [broadcastInDim_apply _ bcast_S_S393216 _ (ix1 k) (fun a => a.elim0) (fun a => a.elim0)]
  unfold shapeCast
  exact congrArg b (only_index _)

/-- The kernel program's number at an edge: the two projections at the end points' nodes, plus the bias. -/
theorem scores_apply (zw : (⟨S12288x2, .f32⟩ : BufTy).Contents (Elt F)) (r c : (⟨S393216, .i32⟩ : BufTy).Contents (Elt F))
    (b : (⟨S1, .f32⟩ : BufTy).Contents (Elt F)) (k : Fin 393216) :
    scores (F := F) zw r c b (ix1 k)
      = FloatOps.addf (FloatOps.addf (zw (ix2 (node (wrap (F := F) r (ix1 k))) 0)) (zw (ix2 (node (wrap (F := F) c (ix1 k))) 1))) (b (ix1 0)) := by
  unfold scores
  show FloatOps.addf (FloatOps.addf (pick (F := F) (proj0 (F := F) zw) r (ix1 k)) (pick (F := F) (proj1 (F := F) zw) c (ix1 k)))
    ((broadcastInDim S393216 ![] bcast_S_S393216 (shapeCast S_ b shapeCasts_S1_S_) : (⟨S393216, .f32⟩ : BufTy).Contents (Elt F)) (ix1 k)) = _
  rw [pick_apply, pick_apply, proj0_apply, proj1_apply, bias_apply]

end Kernel

end Cert.Edges

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.Blocks.lean ====
/-
  The two arrays the kernel calls leave.

  The first call runs over 12 grid points; point `t` loads rows `1024 t … 1024 t + 1023` of `z` and the whole `[128, 2]`
  weight matrix, multiplies them on the matrix unit into a zero accumulator and writes the `[1024, 2]` product back to rows
  `1024 t … 1024 t + 1023` of the output. At the ideal values the entry `(n, j)` of that block is `∑ k, z (n, k) · w (k, j)`,
  the same function of `(n, j)` for every point, and the 12 blocks tile the output: the array ends at `projection z w`.

  The second call runs over 48 grid points; point `t` writes a `[256, 12288]` block of the constant `0.0` to rows
  `256 t … 256 t + 255`. The 48 blocks tile the output: the array ends constant.
-/
import proofs.«123619_j7215545058050_2_alg».proof.Proof.KernelIdealFrameP
import proofs.«123619_j7215545058050_2_alg».proof.Proof.LibPlainMatmul
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-! ## The array of zeros -/

section Zeros

variable {F : FTy → Type} [FloatOps F]
variable (V : (c : Dev nD) → (b : Ref sig .tc) → Buf (Elt F) ((c : Thread nD τ).loc b))

/-- The constant array the second call leaves. -/
def zeros : S12288x12288.Idx → Elt F .f32 := fun _ => Scalar.ofBits .f32 0x00000000#32

/-- The block index of point `t` is `(t, 0)`, and every row block is some point's. -/
theorem base_index : ∀ t : Fin cfg1.N, win1_0.index t (1 : Fin 2) = 0 ∧ win1_0.index t (0 : Fin 2) ≤ 47 :=
  (by decide +kernel : ∀ t : Fin grid1.N, _)

theorem base_onto : ∀ q : Fin 48, ∃ t : Fin cfg1.N, win1_0.index t (0 : Fin 2) = q.val ∧ win1_0.index t (1 : Fin 2) = 0 :=
  (by decide +kernel : ∀ q : Fin 48, ∃ t : Fin grid1.N, win1_0.index t (0 : Fin 2) = q.val ∧ win1_0.index t (1 : Fin 2) = 0)

/-- What point `t` writes back is its block of the constant array. -/
theorem base_flushed (c : Dev nD) (t : Fin cfg1.N) :
    (dat1 V c).flushed 0 t = ((cfg1.win 0).blk t).view.read (Elt F) (zeros (F := F)) := by
  show (cfg1.win 0).cut (grid1.coords t) ((dat1 V c).after 0 t) = _
  rw [after1_0]
  unfold out1_0
  rw [View.canon_unit_zero zero_offsets]
  rfl

/-- An index is in point `t`'s block iff each coordinate is in the block's range on its axis. -/
theorem base_mem (t : Fin cfg1.N) (i : S12288x12288.Idx) :
    i ∈ ((cfg1.win 0).blk t).view.set ↔ ∀ a : Fin 2, win1_0.index t a * S256x12288.size a ≤ (i a).val ∧ (i a).val < win1_0.index t a * S256x12288.size a + S256x12288.size a := by
  show i ∈ ((View.whole main_v31).slice (win1_0.rect t)).set ↔ _
  rw [View.set_slice_whole, Rect.mem_set_unit]
  exact Iff.rfl

/-- Every index of the array is in some point's block: row `r` is in block `r / 256`. -/
theorem base_cover (i : S12288x12288.Idx) :
    ∃ t : Fin cfg1.N, (cfg1.win 0).flush t = true ∧ i ∈ ((cfg1.win 0).blk t).view.set := by
  have hi0 : (i 0).val < 12288 := (i 0).isLt
  have hi1 : (i 1).val < 12288 := (i 1).isLt
  obtain ⟨t, q0, q1⟩ := base_onto ⟨(i 0).val / 256, by omega⟩
  refine ⟨t, flush1_0 t, ?_⟩
  rw [base_mem]
  intro a
  match a with
  | ⟨0, _⟩ => show win1_0.index t (0 : Fin 2) * 256 ≤ (i 0).val ∧ (i 0).val < win1_0.index t (0 : Fin 2) * 256 + 256; rw [q0]; show (i 0).val / 256 * 256 ≤ (i 0).val ∧ (i 0).val < (i 0).val / 256 * 256 + 256; omega
  | ⟨1, _⟩ => show win1_0.index t (1 : Fin 2) * 12288 ≤ (i 1).val ∧ (i 1).val < win1_0.index t (1 : Fin 2) * 12288 + 12288; rw [q1]; omega

/-- The second call's output array after the call. -/
theorem base_array (c : Dev nD) : (dat1 V c).arrAt 0 cfg1.N = zeros (F := F) :=
  (dat1 V c).arrAt_eq_of_cover 0 (zeros (F := F)) (fun t _ => base_flushed V c t) base_cover

end Zeros

/-! ## The projection -/

section Projection

variable (V : (c : Dev nD) → (b : Ref sig .tc) → Buf (Elt Ideal) ((c : Thread nD τ).loc b))

/-- The matrix product `z · w`, entry by entry. -/
def projection (z : S12288x128.Idx → EReal) (w : S128x2.Idx → EReal) : S12288x2.Idx → EReal :=
  fun i => ∑ k : Fin 128, z (ix2 (i 0) k) * w (ix2 k (i 1))

/-- The body's product at an entry of the block: the sum over the 128 columns. -/
theorem product_apply (x0 : FVec Ideal S1024x128 .f32) (x1 : FVec Ideal S128x2 .f32) (p : Fin 1024) (q : Fin 2) :
    k0_pay1 (F := Ideal) x0 x1 (ix2 p q) = ∑ k : Fin 128, x0 (ix2 p k) * x1 (ix2 k q) := by
  unfold k0_pay1
  rw [shapeCast_self]
  exact PlainMatmul.plainMatmul_apply none x0 x1 p q

/-- The printed index maps over the grid: the `z` block moves with the output block, the weight block stays. -/
theorem proj_index : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 11 :=
  (by decide +kernel : ∀ t : Fin grid0.N, _)

theorem proj_onto : ∀ q : Fin 12, ∃ t : Fin cfg0.N, win0_2.index t (0 : Fin 2) = q.val ∧ win0_2.index t (1 : Fin 2) = 0 :=
  (by decide +kernel : ∀ q : Fin 12, ∃ t : Fin grid0.N, win0_2.index t (0 : Fin 2) = q.val ∧ win0_2.index t (1 : Fin 2) = 0)

/-- What point `t` writes back is its block of the whole product. -/
theorem proj_flushed (c : Dev nD) (t : Fin cfg0.N) :
    (dat0 V c).flushed 2 t = ((cfg0.win 2).blk t).view.read (Elt Ideal) (projection (V c main_arg0) (V c main_v6)) := by
  show (cfg0.win 2).cut (grid0.coords t) ((dat0 V c).after 2 t) = _
  rw [after0_2]
  unfold out0_2
  rw [View.canon_unit_zero zero_offsets]
  simp only [View.ld_unit_zero (S := S1024x128) zero_offsets, View.ld_unit_zero (S := S128x2) zero_offsets]
  obtain ⟨e0, e1, e2, e3, e4, e5⟩ := proj_index t
  funext j
  obtain ⟨p, q, rfl⟩ : ∃ (p : Fin 1024) (q : Fin 2), j = ix2 p q := ⟨j 0, j 1, eq_ix2 j⟩
  refine (product_apply (iblk0 V c 0 t) (iblk0 V c 1 t) p q).trans ?_
  show _ = projection (V c main_arg0) (V c main_v6) (((cfg0.win 2).blk t).view.emb (ix2 p q))
  simp only [projection]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 2 + 1 * q.val = win0_2.index t (1 : Fin 2) * 2 + 1 * q.val; omega
  have a0 : iblk0 V c 0 t (ix2 p k) = V c main_arg0 (ix2 ((((cfg0.win 2).blk t).view.emb (ix2 p q)) 0) k) :=
    congrArg (V c main_arg0) h0
  have a1 : iblk0 V c 1 t (ix2 k q) = V c main_v6 (ix2 k ((((cfg0.win 2).blk t).view.emb (ix2 p q)) 1)) :=
    congrArg (V c main_v6) h1
  exact congrArg₂ (fun x y : EReal => x * y) a0 a1

/-- An index is in point `t`'s block iff each coordinate is in the block's range on its axis. -/
theorem proj_mem (t : Fin cfg0.N) (i : S12288x2.Idx) :
    i ∈ ((cfg0.win 2).blk t).view.set ↔ ∀ a : Fin 2, win0_2.index t a * S1024x2.size a ≤ (i a).val ∧ (i a).val < win0_2.index t a * S1024x2.size a + S1024x2.size a := by
  show i ∈ ((View.whole main_v7).slice (win0_2.rect t)).set ↔ _
  rw [View.set_slice_whole, Rect.mem_set_unit]
  exact Iff.rfl

/-- Every index of the output is in some point's block: row `n` is in block `n / 1024`. -/
theorem proj_cover (i : S12288x2.Idx) :
    ∃ t : Fin cfg0.N, (cfg0.win 2).flush t = true ∧ i ∈ ((cfg0.win 2).blk t).view.set := by
  have hi0 : (i 0).val < 12288 := (i 0).isLt
  have hi1 : (i 1).val < 2 := (i 1).isLt
  obtain ⟨t, q0, q1⟩ := proj_onto ⟨(i 0).val / 1024, by omega⟩
  refine ⟨t, flush0_2 t, ?_⟩
  rw [proj_mem]
  intro a
  match a with
  | ⟨0, _⟩ => show win0_2.index t (0 : Fin 2) * 1024 ≤ (i 0).val ∧ (i 0).val < win0_2.index t (0 : Fin 2) * 1024 + 1024; rw [q0]; show (i 0).val / 1024 * 1024 ≤ (i 0).val ∧ (i 0).val < (i 0).val / 1024 * 1024 + 1024; omega
  | ⟨1, _⟩ => show win0_2.index t (1 : Fin 2) * 2 ≤ (i 1).val ∧ (i 1).val < win0_2.index t (1 : Fin 2) * 2 + 2; rw [q1]; omega

/-- The first call's output array after the call, at the ideal values. -/
theorem proj_array (c : Dev nD) : (dat0 V c).arrAt 2 cfg0.N = projection (V c main_arg0) (V c main_v6) :=
  (dat0 V c).arrAt_eq_of_cover 2 (projection (V c main_arg0) (V c main_v6)) (fun t _ => proj_flushed V c t) proj_cover

end Projection

end Cert.KernelIdeal.Blocks

end
-- ==== Proof.EdgeScores.lean ====
/-
  The reference's per-edge number at an edge, and the join with the kernel program's.

  The reference gathers the source's and the target's rows of `z`, joins them into one row of 256 numbers and takes its
  product with the weight row, then adds the bias: at edge `k` with nodes `(n, n')` that is
  `∑ q < 256, row q · W (0, q) + b`, where `row q = z (n, q)` for `q < 128` and `z (n', q - 128)` for `q ≥ 128`.
  Splitting the sum at 128 gives `∑ q < 128, z (n, q) · W (0, q) + ∑ q < 128, z (n', q) · W (0, 128 + q) + b`, which is what the
  kernel program computes from the projection `z · [w₁ | w₂]`: its column 0 at `n` plus its column 1 at `n'` plus `b`. The two
  sides are the same sums of the same products; only the grouping differs, and addition on the extended reals is
  associative and commutative, so nothing is asked of the entries.
-/
import proofs.«123619_j7215545058050_2_alg».proof.Proof.Edges
import proofs.«123619_j7215545058050_2_alg».proof.Proof.Blocks
import Idealize.ShloMosaic.PureOps.Ideal.Laws

noncomputable section

open scoped BigOperators

namespace Cert.Edges

open Idealize.ShloMosaic Idealize.ShloMosaic.ValueIdx
open Cert.KernelIdeal Cert.KernelIdeal.Gen Cert.KernelIdeal.Stages Cert.KernelIdeal.Blocks
open Cert.ReferenceIdeal.Read

/-! ## The two programs wrap the indices alike -/

theorem wrap_ends0 {F : FTy → Type} [FloatOps F] (e : (⟨S2x393216, .i32⟩ : BufTy).Contents (Elt F)) :
    wrap (F := F) (ends0 (F := F) e) = val_main_v8 (F := F) e := rfl

theorem wrap_ends1 {F : FTy → Type} [FloatOps F] (e : (⟨S2x393216, .i32⟩ : BufTy).Contents (Elt F)) :
    wrap (F := F) (ends1 (F := F) e) = val_main_v15 (F := F) e := rfl

/-! ## A sum over 256 split at 128 -/

theorem sum_split (f : Fin 256 → EReal) :
    ∑ q : Fin 256, f q = ∑ q : Fin 128, f ⟨q.val, by omega⟩ + ∑ q : Fin 128, f ⟨128 + q.val, by omega⟩ :=
  Fin.sum_univ_add (a := 128) (b := 128) f

/-! ## The reference's stages at an edge -/

section Reference
variable {F : FTy → Type} [FloatOps F]

/-- The source's gathered row at an edge and a column. -/
theorem row0_apply (z : (⟨Cert.ReferenceIdeal.S12288x128, .f32⟩ : BufTy).Contents (Elt F)) (e : (⟨Cert.ReferenceIdeal.S2x393216, .i32⟩ : BufTy).Contents (Elt F))
    (k : Fin 393216) (q : Fin 128) :
    val_main_v10 (F := F) z e (ix2 k q) = z (ix2 (node (val_main_v8 (F := F) e (ix1 k))) q) := by
  unfold val_main_v10
  rw [gather_rows, val_main_v9_apply]
  have h : idx_main_v9 (ix2 k (0 : Fin 1)) = ix1 k := funext fun a => match a with | ⟨0, _⟩ => rfl
  rw [h]

/-- The target's gathered row at an edge and a column. -/
theorem row1_apply (z : (⟨Cert.ReferenceIdeal.S12288x128, .f32⟩ : BufTy).Contents (Elt F)) (e : (⟨Cert.ReferenceIdeal.S2x393216, .i32⟩ : BufTy).Contents (Elt F))
    (k : Fin 393216) (q : Fin 128) :
    val_main_v17 (F := F) z e (ix2 k q) = z (ix2 (node (val_main_v15 (F := F) e (ix1 k))) q) := by
  unfold val_main_v17
  rw [gather_rows, val_main_v16_apply]
  have h : idx_main_v16 (ix2 k (0 : Fin 1)) = ix1 k := funext fun a => match a with | ⟨0, _⟩ => rfl
  rw [h]

/-- The joined row's first half is the source's row. -/
theorem joined_left (z : (⟨Cert.ReferenceIdeal.S12288x128, .f32⟩ : BufTy).Contents (Elt F)) (e : (⟨Cert.ReferenceIdeal.S2x393216, .i32⟩ : BufTy).Contents (Elt F))
    (k : Fin 393216) (q : Fin 128) :
    val_main_v18 (F := F) z e (ix2 k (⟨q.val, by omega⟩ : Fin 256)) = val_main_v10 (F := F) z e (ix2 k q) := by
  unfold val_main_v18
  exact concatenate_pair_apply_left 1 _ _ Cert.ReferenceIdeal.Gen.concatenates_S393216x128_S393216x128_S393216x256_d1
    (ix2 k (⟨q.val, by omega⟩ : Fin 256)) rfl (ix2 k q) (fun b => match b with
      | ⟨0, _⟩ => rfl
      | ⟨1, _⟩ => rfl)

/-- The joined row's second half is the target's row. -/
theorem joined_right (z : (⟨Cert.ReferenceIdeal.S12288x128, .f32⟩ : BufTy).Contents (Elt F)) (e : (⟨Cert.ReferenceIdeal.S2x393216, .i32⟩ : BufTy).Contents (Elt F))
    (k : Fin 393216) (q : Fin 128) :
    val_main_v18 (F := F) z e (ix2 k (⟨128 + q.val, by omega⟩ : Fin 256)) = val_main_v17 (F := F) z e (ix2 k q) := by
  unfold val_main_v18
  exact concatenate_pair_apply_right 1 _ _ Cert.ReferenceIdeal.Gen.concatenates_S393216x128_S393216x128_S393216x256_d1
    (ix2 k (⟨128 + q.val, by omega⟩ : Fin 256)) rfl rfl (ix2 k q) (fun b hb => match b with
      | ⟨0, _⟩ => rfl
      | ⟨1, _⟩ => absurd rfl hb)
    (by show q.val + 128 = 128 + q.val; omega)

end Reference

/-- The reference's number at an edge, the sum split at 128. -/
theorem ref_apply (z : (⟨Cert.ReferenceIdeal.S12288x128, .f32⟩ : BufTy).Contents (Elt Ideal)) (e : (⟨Cert.ReferenceIdeal.S2x393216, .i32⟩ : BufTy).Contents (Elt Ideal))
    (w : (⟨Cert.ReferenceIdeal.S1x256, .f32⟩ : BufTy).Contents (Elt Ideal)) (b : (⟨Cert.ReferenceIdeal.S1, .f32⟩ : BufTy).Contents (Elt Ideal)) (k : Fin 393216) :
    val_main_v24 (F := Ideal) z e w b (ix1 k)
      = (∑ q : Fin 128, (z (ix2 (node (val_main_v8 (F := Ideal) e (ix1 k))) q) : EReal) * w (ix2 0 (⟨q.val, by omega⟩ : Fin 256))
          + ∑ q : Fin 128, (z (ix2 (node (val_main_v15 (F := Ideal) e (ix1 k))) q) : EReal) * w (ix2 0 (⟨128 + q.val, by omega⟩ : Fin 256)))
        + b (ix1 0) := by
  rw [val_main_v24_apply, val_main_v23_apply, val_main_v20_apply, val_main_v22_apply, val_main_v21_apply, Ideal.addf_def]
  have hb : idx_main_v21 (idx_main_v22 (idx_main_v24 (ix1 k))) = ix1 0 := funext fun a => match a with | ⟨0, _⟩ => rfl
  rw [hb, sum_split]
  have hl : ∀ q' : Fin 256, lidx_main_v20 (idx_main_v24 (ix1 k)) q' = ix2 k q' := fun q' => funext fun a => Fin.ext (by
    match a with
    | ⟨0, _⟩ => exact Nat.div_one _
    | ⟨1, _⟩ => rfl)
  have hr : ∀ q' : Fin 256, idx_main_v19 (ridx_main_v20 (idx_main_v24 (ix1 k)) q') = ix2 0 q' := fun q' => funext fun a => Fin.ext (by
    match a with
    | ⟨0, _⟩ => rfl
    | ⟨1, _⟩ => rfl)
  simp only [hl, val_main_v19_apply, hr, joined_left, joined_right, row0_apply, row1_apply]

/-- The kernel program's number at an edge, from the projection. -/
theorem ker_apply (z : (⟨S12288x128, .f32⟩ : BufTy).Contents (Elt Ideal)) (e : (⟨S2x393216, .i32⟩ : BufTy).Contents (Elt Ideal))
    (w : (⟨S1x256, .f32⟩ : BufTy).Contents (Elt Ideal)) (b : (⟨S1, .f32⟩ : BufTy).Contents (Elt Ideal)) (k : Fin 393216) :
    scores (F := Ideal) (projection z (halves (F := Ideal) w)) (ends0 (F := Ideal) e) (ends1 (F := Ideal) e) b (ix1 k)
      = (∑ q : Fin 128, (z (ix2 (node (val_main_v8 (F := Ideal) e (ix1 k))) q) : EReal) * w (ix2 0 (⟨q.val, by omega⟩ : Fin 256))
          + ∑ q : Fin 128, (z (ix2 (node (val_main_v15 (F := Ideal) e (ix1 k))) q) : EReal) * w (ix2 0 (⟨128 + q.val, by omega⟩ : Fin 256)))
        + b (ix1 0) := by
  rw [scores_apply, wrap_ends0, wrap_ends1, Ideal.addf_def, Ideal.addf_def]
  have h0 : ∀ q : Fin 128, halves (F := Ideal) w (ix2 q 0) = w (ix2 0 (⟨q.val, by omega⟩ : Fin 256)) := fun q =>
    (halves_apply w q 0).trans (congrArg w (congrArg (ix2 0) (Fin.ext (by show 0 * 128 + q.val = q.val; omega))))
  have h1 : ∀ q : Fin 128, halves (F := Ideal) w (ix2 q 1) = w (ix2 0 (⟨128 + q.val, by omega⟩ : Fin 256)) := fun q =>
    (halves_apply w q 1).trans (congrArg w (congrArg (ix2 0) (Fin.ext (by show 1 * 128 + q.val = 128 + q.val; omega))))
  simp only [projection, h0, h1]

/-- The two programs compute the same per-edge numbers. -/
theorem scores_eq (z : (⟨S12288x128, .f32⟩ : BufTy).Contents (Elt Ideal)) (e : (⟨S2x393216, .i32⟩ : BufTy).Contents (Elt Ideal))
    (w : (⟨S1x256, .f32⟩ : BufTy).Contents (Elt Ideal)) (b : (⟨S1, .f32⟩ : BufTy).Contents (Elt Ideal)) :
    scores (F := Ideal) (projection z (halves (F := Ideal) w)) (ends0 (F := Ideal) e) (ends1 (F := Ideal) e) b
      = val_main_v24 (F := Ideal) z e w b := by
  funext j
  obtain ⟨k, rfl⟩ : ∃ k : Fin 393216, j = ix1 k := ⟨j 0, eq_ix1 j⟩
  rw [ker_apply, ref_apply]

end Cert.Edges

end
-- ==== Proof.HostFold.lean ====
/-
  What the kernel program's buffers hold at each boundary between its host stretches and its two kernel calls, read
  back to the program's arguments: the buffers a host stretch writes are the stage functions of what the stretch found,
  and a buffer that a stretch or a kernel call does not write is what was there before.
-/
import proofs.«123619_j7215545058050_2_alg».proof.Proof.KernelIdealFrameP
import proofs.«123619_j7215545058050_2_alg».proof.Proof.Stages

set_option maxRecDepth 16384

noncomputable section

namespace Cert.KernelIdeal.Fold

open Cert.KernelIdeal Cert.KernelIdeal.Gen Cert.KernelIdeal.GenP Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first kernel call -/

theorem W1_ends0 (c : Dev nD) : W1 m ρ c (Proc.devRef .tc main_v1) = ends0 (F := F) (m ((c : Thread nD τ).loc main_arg1)) := by
  show StableHlo.after hostOps0 (W0 m ρ c) (Proc.devRef .tc main_v1) = _
  after_results
  rfl

theorem W1_ends1 (c : Dev nD) : W1 m ρ c (Proc.devRef .tc main_v3) = ends1 (F := F) (m ((c : Thread nD τ).loc main_arg1)) := by
  show StableHlo.after hostOps0 (W0 m ρ c) (Proc.devRef .tc main_v3) = _
  after_results
  rfl

theorem W1_halves (c : Dev nD) : W1 m ρ c (Proc.devRef .tc main_v6) = halves (F := F) (m ((c : Thread nD τ).loc main_arg3)) := by
  show StableHlo.after hostOps0 (W0 m ρ c) (Proc.devRef .tc main_v6) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

/-! ## After the first kernel call: its output array is what its write-backs leave, everything else as before -/

theorem W2_proj (c : Dev nD) : W2 m ρ c (Proc.devRef .tc main_v7) = (dat0 (V1 m ρ) c).arrAt 2 cfg0.N := W2_arr m ρ c 2

theorem W2_ends0 (c : Dev nD) : W2 m ρ c (Proc.devRef .tc main_v1) = ends0 (F := F) (m ((c : Thread nD τ).loc main_arg1)) :=
  (W2_of_ne m ρ c main_v1 (by decide)).trans (W1_ends0 m ρ c)

theorem W2_ends1 (c : Dev nD) : W2 m ρ c (Proc.devRef .tc main_v3) = ends1 (F := F) (m ((c : Thread nD τ).loc main_arg1)) :=
  (W2_of_ne m ρ c main_v3 (by decide)).trans (W1_ends1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg4 (c : Dev nD) : W2 m ρ c (Proc.devRef .tc main_arg4) = m ((c : Thread nD τ).loc main_arg4) :=
  (W2_of_ne m ρ c main_arg4 (by decide)).trans (W1_arg4 m ρ c)

/-! ## Before the second kernel call -/

theorem W3_scores (c : Dev nD) : W3 m ρ c (Proc.devRef .tc main_v29)
    = scores (F := F) (W2 m ρ c (Proc.devRef .tc main_v7)) (W2 m ρ c (Proc.devRef .tc main_v1)) (W2 m ρ c (Proc.devRef .tc main_v3))
        (W2 m ρ c (Proc.devRef .tc main_arg4)) := by
  show StableHlo.after hostOps1 (W2 m ρ c) (Proc.devRef .tc main_v29) = _
  after_results_simp
  rfl

theorem W3_attrSums (c : Dev nD) : W3 m ρ c (Proc.devRef .tc main_v30) = attrSums (F := F) (W2 m ρ c (Proc.devRef .tc main_arg2)) := by
  show StableHlo.after hostOps1 (W2 m ρ c) (Proc.devRef .tc main_v30) = _
  after_results_simp
  rfl

theorem W3_ends0 (c : Dev nD) : W3 m ρ c (Proc.devRef .tc main_v1) = W2 m ρ c (Proc.devRef .tc main_v1) := by
  show StableHlo.after hostOps1 (W2 m ρ c) (Proc.devRef .tc main_v1) = _
  after_results_simp

theorem W3_ends1 (c : Dev nD) : W3 m ρ c (Proc.devRef .tc main_v3) = W2 m ρ c (Proc.devRef .tc main_v3) := by
  show StableHlo.after hostOps1 (W2 m ρ c) (Proc.devRef .tc main_v3) = _
  after_results_simp

/-! ## After the second kernel call -/

theorem W4_base (c : Dev nD) : W4 m ρ c (Proc.devRef .tc main_v31) = (dat1 (V3 m ρ) c).arrAt 0 cfg1.N := W4_arr m ρ c 0

end Cert.KernelIdeal.Fold

end
-- ==== Proof.ReturnFold.lean ====
/-
  The result buffer at the return. The last host stretch computes the positions twice from the two rows of the edge
  list, writes the per-edge numbers into the array of zeros at the positions and adds the attribute sums at the positions:
  the buffer is `total` of what the stretch found, and what it found is read back to the program's arguments and to the two
  arrays the kernel calls leave.
-/
import proofs.«123619_j7215545058050_2_alg».proof.Proof.HostFold

set_option maxRecDepth 16384

noncomputable section

namespace Cert.KernelIdeal.Fold

open Cert.KernelIdeal Cert.KernelIdeal.Gen Cert.KernelIdeal.GenP Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the return -/

/-- Two columns of index vectors side by side: the `[edges, 2]` array of positions. -/
def joined (a b : (⟨S393216x1, .i32⟩ : BufTy).Contents (Elt F)) : (⟨S393216x2, .i32⟩ : BufTy).Contents (Elt F) :=
  concatenate S393216x2 1 [⟨S393216x1, a⟩, ⟨S393216x1, b⟩] concatenates_S393216x1_S393216x1_S393216x2_d1

/-- The operation that joins the two columns writes `joined` of what the columns' buffers hold (the first time). -/
theorem joined_first (V : Valuation τ sig (Elt F)) (ha hb hy) :
    (StableHlo.binary main_v42 main_v43 main_v44 ((fun a b => concatenate S393216x2 1 [⟨S393216x1, a⟩, ⟨S393216x1, b⟩] concatenates_S393216x1_S393216x1_S393216x2_d1) : (⟨S393216x1, .i32⟩ : BufTy).Contents (Elt F) → (⟨S393216x1, .i32⟩ : BufTy).Contents (Elt F) → (⟨S393216x2, .i32⟩ : BufTy).Contents (Elt F)) ha hb hy).result V (no_index (Proc.devRef .tc main_v44))
      = joined (F := F) (V (Proc.devRef .tc main_v42)) (V (Proc.devRef .tc main_v43)) :=
  StableHlo.binary_result _ _ _ _ ha hb hy V

/-- The same for the second time the positions are computed. -/
theorem joined_second (V : Valuation τ sig (Elt F)) (ha hb hy) :
    (StableHlo.binary main_v56 main_v57 main_v58 ((fun a b => concatenate S393216x2 1 [⟨S393216x1, a⟩, ⟨S393216x1, b⟩] concatenates_S393216x1_S393216x1_S393216x2_d1) : (⟨S393216x1, .i32⟩ : BufTy).Contents (Elt F) → (⟨S393216x1, .i32⟩ : BufTy).Contents (Elt F) → (⟨S393216x2, .i32⟩ : BufTy).Contents (Elt F)) ha hb hy).result V (no_index (Proc.devRef .tc main_v58))
      = joined (F := F) (V (Proc.devRef .tc main_v56)) (V (Proc.devRef .tc main_v57)) :=
  StableHlo.binary_result _ _ _ _ ha hb hy V

set_option maxHeartbeats 1000000 in
/-- The result buffer at the return is `total` of what the last host stretch found. -/
theorem W5_total (c : Dev nD) : W5 m ρ c (Proc.devRef .tc main_v59)
    = total (F := F) (W4 m ρ c (Proc.devRef .tc main_v31)) (W4 m ρ c (Proc.devRef .tc main_v1)) (W4 m ρ c (Proc.devRef .tc main_v3))
        (W4 m ρ c (Proc.devRef .tc main_v29)) (W4 m ρ c (Proc.devRef .tc main_v30)) := by
  show StableHlo.after hostOps2 (W4 m ρ c) (Proc.devRef .tc main_v59) = _
  simp (disch := decide) only [after_cons, after_nil, ↓joined_first, ↓joined_second,
      nullary_result', unary_result', binary_result', ternary_result', reshape_result',
      nullary_result_ne', unary_result_ne', binary_result_ne', ternary_result_ne', reshape_result_ne']
  unfold total placed positions column wrap joined
  rfl

end Cert.KernelIdeal.Fold

end
-- ==== Proof.Result.lean ====
/-
  The kernel program's result is the reference's.

  Write `P` for the array that holds the per-edge numbers at their positions and zero elsewhere (the numbers written into
  zeros, a later edge replacing an earlier one at the same position), and `Σ i` for the sum of the attribute sums of the
  edges whose position is `i`. The kernel program adds the sums onto `P`: its result at `i` is `P i + Σ i`. The reference
  adds the sums onto zeros and then adds `P`: `(0 + Σ i) + P i`. These are equal on the extended reals by `0 + x = x` and
  commutativity of addition — no entry needs to be finite. The two programs build the same positions from the edge list,
  the same attribute sums, the same zeros, and (`scores_eq`) the same per-edge numbers.
-/
import proofs.«123619_j7215545058050_2_alg».proof.Proof.EdgeScores
import proofs.«123619_j7215545058050_2_alg».proof.Proof.ReturnFold

set_option maxRecDepth 16384

noncomputable section

open scoped BigOperators

namespace Cert.Result

open Idealize.ShloMosaic Idealize.ShloMosaic.TcCoe Idealize.SL.Sem Idealize.ShloMosaic.ValueIdx
open Cert.KernelIdeal Cert.KernelIdeal.Gen Cert.KernelIdeal.GenP Cert.KernelIdeal.Stages Cert.KernelIdeal.Blocks
open Cert.ReferenceIdeal.Read

/-- Adding sums at positions onto an array `P` is adding them onto zeros and then adding `P`. -/
theorem add_onto {si u : Shape} (d : ScatterDims S12288x12288 si u) (P Z : S12288x12288.Idx → EReal) (idx : IVec si 32) (s : u.Idx → EReal)
    (hZ : ∀ i, Z i = 0) :
    Host.scatterAdd (F := Ideal) (φ := .f32) d P idx s = addf (F := Ideal) (φ := .f32) (Host.scatterAdd (F := Ideal) (φ := .f32) d Z idx s) P := by
  funext i
  simp only [Host.scatterAdd, addf, Ideal.hostScatterAdd_def, Ideal.hostScatterAdd, Ideal.addf_def]
  rw [hZ i, zero_add, add_comm]

/-- The array of zeros is zero at the ideal values. -/
theorem zeros_apply (i : S12288x12288.Idx) : zeros (F := Ideal) i = 0 := by
  show Ideal.ofBits .f32 0x00000000#32 = 0
  exact Ideal.ofBits_zero_f32

/-- The kernel program's result as a function of its arguments is the reference's. -/
theorem total_eq (z : (⟨S12288x128, .f32⟩ : BufTy).Contents (Elt Ideal)) (e : (⟨S2x393216, .i32⟩ : BufTy).Contents (Elt Ideal))
    (a : (⟨S393216x4, .f32⟩ : BufTy).Contents (Elt Ideal)) (w : (⟨S1x256, .f32⟩ : BufTy).Contents (Elt Ideal))
    (b : (⟨S1, .f32⟩ : BufTy).Contents (Elt Ideal)) :
    total (F := Ideal) (zeros (F := Ideal)) (ends0 (F := Ideal) e) (ends1 (F := Ideal) e)
        (scores (F := Ideal) (projection z (halves (F := Ideal) w)) (ends0 (F := Ideal) e) (ends1 (F := Ideal) e) b) (attrSums (F := Ideal) a)
      = val_main_v56 (F := Ideal) z e a w b := by
  rw [Cert.Edges.scores_eq]
  unfold total
  rw [add_onto _ _ (zeros (F := Ideal)) _ _ zeros_apply]
  have hd : Cert.KernelIdeal.scatter_S12288x12288_S393216x2_S393216_n_01_01_1 = Cert.ReferenceIdeal.scatter_S12288x12288_S393216x2_S393216_n_01_01_1 := rfl
  have hp : positions (F := Ideal) (ends0 (F := Ideal) e) (ends1 (F := Ideal) e) = val_main_v38 (F := Ideal) e := rfl
  have hp' : val_main_v54 (F := Ideal) e = val_main_v38 (F := Ideal) e := rfl
  have hs : attrSums (F := Ideal) a = val_main_v41 (F := Ideal) a := rfl
  have hz : zeros (F := Ideal) = val_main_v25 (F := Ideal) := rfl
  have hz' : val_main_v40 (F := Ideal) = val_main_v25 (F := Ideal) := rfl
  unfold placed val_main_v56 val_main_v55 val_main_v39
  rw [hp', hz', hp, hs, hz, hd]

variable (m : (ℓ : Loc nD τ sig) → Buf (Elt Ideal) ℓ) (ρ : Dev nD → PrngReg)

/-- The result buffer at the return, as the stage functions of the arguments and of the two arrays the kernel calls leave. -/
theorem W5_stages (c : Dev nD) : W5 m ρ c (Proc.devRef .tc main_v59)
    = total (F := Ideal) ((dat1 (V3 m ρ) c).arrAt 0 cfg1.N)
        (ends0 (F := Ideal) (m ((c : Thread nD τ).loc main_arg1))) (ends1 (F := Ideal) (m ((c : Thread nD τ).loc main_arg1)))
        (scores (F := Ideal) ((dat0 (V1 m ρ) c).arrAt 2 cfg0.N) (ends0 (F := Ideal) (m ((c : Thread nD τ).loc main_arg1)))
          (ends1 (F := Ideal) (m ((c : Thread nD τ).loc main_arg1))) (m ((c : Thread nD τ).loc main_arg4)))
        (attrSums (F := Ideal) (m ((c : Thread nD τ).loc main_arg2))) := by
  rw [Fold.W5_total, Fold.W4_base, W4_of_ne m ρ c main_v1 (by decide), W4_of_ne m ρ c main_v3 (by decide), W4_of_ne m ρ c main_v29 (by decide),
    W4_of_ne m ρ c main_v30 (by decide), Fold.W3_ends0, Fold.W3_ends1, Fold.W3_scores, Fold.W3_attrSums, Fold.W2_proj, Fold.W2_ends0, Fold.W2_ends1, Fold.W2_arg2, Fold.W2_arg4]

/-- The kernel program's result buffer at the return is the reference's function of the program's arguments. -/
theorem kernel_value (c : Dev nD) : W5 m ρ c (Proc.devRef .tc main_v59)
    = val_main_v56 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have hA : V1 m ρ c main_arg0 = m ((c : Thread nD τ).loc main_arg0) := Fold.W1_arg0 m ρ c
  have hW : V1 m ρ c main_v6 = halves (F := Ideal) (m ((c : Thread nD τ).loc main_arg3)) := Fold.W1_halves m ρ c
  rw [W5_stages, base_array (V3 m ρ) c, proj_array (V1 m ρ) c, hA, hW]
  exact total_eq _ _ _ _ _

end Cert.Result

end
-- ==== Proof.lean ====
/-
  The certificate of the edge predictor.

  The kernel program computes, per edge `k` with end points `(r, c)`, the number `zw (r, 0) + zw (c, 1) + b` from the projection
  `zw = z · [w₁ | w₂]` (a kernel call), writes these numbers into a dense array of zeros (a second kernel call) at the positions
  `(r, c)` and adds each edge's attribute sum at its position. The reference gathers the rows `z r` and `z c`, joins them,
  multiplies with the weight row `W = [w₁ w₂]` and adds `b`; it writes those numbers into one array of zeros, adds the
  attribute sums into another, and adds the two arrays.

  At the ideal values the two per-edge numbers are the same sum of 256 products grouped differently, and "add the sums onto
  the written array" equals "add the sums onto zeros, then add the written array" by `0 + x = x` and commutativity. Both hold
  for all extended reals, so the precondition is not used. The idealization rewrote no operation, so `preserves` is `True`.

  Frames: the two kernel programs' are the frame runs over their segments; the reference has no kernel call and its frame is
  its run with the result dropped.
-/
import proofs.«123619_j7215545058050_2_alg».proof.Defs
import proofs.«123619_j7215545058050_2_alg».proof.Proof.Gen.Kernel
import proofs.«123619_j7215545058050_2_alg».proof.Proof.KernelFrameP
import proofs.«123619_j7215545058050_2_alg».proof.Proof.Gen.KernelIdeal
import proofs.«123619_j7215545058050_2_alg».proof.Proof.KernelIdealFrameP
import proofs.«123619_j7215545058050_2_alg».proof.Proof.Gen.ReferenceIdeal
import proofs.«123619_j7215545058050_2_alg».proof.Proof.Gen.ReferenceIdeal.Run
import proofs.«123619_j7215545058050_2_alg».proof.Proof.Gen.ReferenceIdeal.Read
import proofs.«123619_j7215545058050_2_alg».proof.Proof.Gen.Pre_finite_inputs
import proofs.«123619_j7215545058050_2_alg».proof.Proof.KernelRun
import proofs.«123619_j7215545058050_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result `val_main_v56` of the arguments: the kernel program's result buffer at the
    return is that function of its arguments, the reference's run states it of its own, and the arguments agree. -/
theorem algebraic : Cert.algebraic_KernelIdeal_ReferenceIdeal := by
  intro m ρ m' ρ' _ hagree
  refine ⟨fun c => Cert.KernelIdeal.GenP.W5 m ρ c (Proc.devRef .tc Cert.KernelIdeal.main_v59), Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1, (hagree c).2.2.2.2]
  exact (Cert.Result.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
